-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg13 : FVec F S3x256 .f32) (main_arg14 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S3x256 .f32 := Host.absf main_arg13
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3 .f32 := Host.absf main_arg14
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S256x128 .f32) (main_arg12 : FVec F S256 .f32) (main_arg13 : FVec F S3x256 .f32) (main_arg14 : FVec F S3 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S256x128 .f32) (main_arg12 : FVec F S256 .f32) (main_arg13 : FVec F S3x256 .f32) (main_arg14 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S2x800000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S256x128 .f32) (main_arg12 : FVec F S256 .f32) (main_arg13 : FVec F S3x256 .f32) (main_arg14 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S3x256 : Shape := ⟨2, ![3, 256]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S128x256 : Shape := ⟨2, ![128, 256]⟩
abbrev S1x256 : Shape := ⟨2, ![1, 256]⟩
abbrev S256x3 : Shape := ⟨2, ![256, 3]⟩
abbrev S1x3 : Shape := ⟨2, ![1, 3]⟩
abbrev S50000x3 : Shape := ⟨2, ![50000, 3]⟩
abbrev S2000x3 : Shape := ⟨2, ![2000, 3]⟩
abbrev S2000x256 : Shape := ⟨2, ![2000, 256]⟩

abbrev nBuf : Space → Nat
  | .hbm => 87
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S256, .f32⟩
  | .hbm, ⟨13, _⟩ => ⟨S3x256, .f32⟩
  | .hbm, ⟨14, _⟩ => ⟨S3, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S1x128, .f32⟩
  | .hbm, ⟨46, _⟩ => ⟨S128x128, .f32⟩
  | .hbm, ⟨47, _⟩ => ⟨S50000x128, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S1x128, .f32⟩
  | .hbm, ⟨79, _⟩ => ⟨S128x128, .f32⟩
  | .hbm, ⟨80, _⟩ => ⟨S128x128, .f32⟩
  | .hbm, ⟨81, _⟩ => ⟨S1x128, .f32⟩
  | .hbm, ⟨82, _⟩ => ⟨S128x256, .f32⟩
  | .hbm, ⟨83, _⟩ => ⟨S1x256, .f32⟩
  | .hbm, ⟨84, _⟩ => ⟨S256x3, .f32⟩
  | .hbm, ⟨85, _⟩ => ⟨S1x3, .f32⟩
  | .hbm, ⟨86, _⟩ => ⟨S50000x3, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x256, .f32⟩
  | .local _ .vmem, ⟨21, _⟩ => ⟨S1x256, .f32⟩
  | .local _ .vmem, ⟨22, _⟩ => ⟨S256x3, .f32⟩
  | .local _ .vmem, ⟨23, _⟩ => ⟨S1x3, .f32⟩
  | .local _ .vmem, ⟨24, _⟩ => ⟨S2000x3, .f32⟩
  | .local _ .vmem, ⟨25, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x3 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x3 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S256x128_S128x256_1_0 : S256x128.Transposes [1, 0] S128x256
  shapeCasts_S256_S1x256 : S256.ShapeCasts S1x256
  transposes_S3x256_S256x3_1_0 : S3x256.Transposes [1, 0] S256x3
  shapeCasts_S3_S1x3 : S3.ShapeCasts S1x3
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x3_S2000x3_1_0_0_1_n_n_wf : DotDims.WF S2000x256 S256x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x256.size a ≤ S128x256.size a
  hwx1_8 : ∀ i : grid1.Coords, EltTy.bits .f32 = 32 ∨ (Rect.block (s := S128x256) S128x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x3.size a ≤ S256x3.size a
  hwx1_10 : ∀ i : grid1.Coords, EltTy.bits .f32 = 32 ∨ (Rect.block (s := S256x3) S256x3.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x3.size a ≤ S1x3.size a
  hwx1_11 : ∀ i : grid1.Coords, EltTy.bits .f32 = 32 ∨ (Rect.block (s := S1x3) S1x3.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x3.size a ≤ S50000x3.size a
  hwx1_12 : ∀ i : grid1.Coords, EltTy.bits .f32 = 32 ∨ (Rect.block (s := S50000x3) S2000x3.size (cc1_transform_12 i) (hinb1_12 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x3_S2000x3_1_0_0_1_n_n : DotDims S2000x256 S256x3 S2000x3 where
  lhsContracting := [1]
  rhsContracting := [0]
  lhsNonContracting := [0]
  rhsNonContracting := [1]
  lhsBatch := []
  rhsBatch := []
  wf := dot_S2000x256_S256x3_S2000x3_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v55) S128x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v56) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v57) S256x3.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v58) S1x3.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v59) S2000x3.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S3x256 : Shape := ⟨2, ![3, 256]⟩
abbrev S3 : Shape := ⟨1, ![3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x256 : Shape := ⟨2, ![128, 256]⟩
abbrev S50000x256 : Shape := ⟨2, ![50000, 256]⟩
abbrev S1x256 : Shape := ⟨2, ![1, 256]⟩
abbrev S256x3 : Shape := ⟨2, ![256, 3]⟩
abbrev S50000x3 : Shape := ⟨2, ![50000, 3]⟩
abbrev S1x3 : Shape := ⟨2, ![1, 3]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S256, .f32⟩
  | .hbm, ⟨13, _⟩ => ⟨S3x256, .f32⟩
  | .hbm, ⟨14, _⟩ => ⟨S3, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S128x128, .f32⟩
  | .hbm, ⟨50, _⟩ => ⟨S50000x128, .f32⟩
  | .hbm, ⟨51, _⟩ => ⟨S50000x128, .f32⟩
  | .hbm, ⟨52, _⟩ => ⟨S1x800000, .i32⟩
  | .hbm, ⟨53, _⟩ => ⟨S800000, .i32⟩
  | .hbm, ⟨54, _⟩ => ⟨S1x800000, .i32⟩
  | .hbm, ⟨55, _⟩ => ⟨S800000, .i32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S128x128, .f32⟩
  | .hbm, ⟨87, _⟩ => ⟨S50000x128, .f32⟩
  | .hbm, ⟨88, _⟩ => ⟨S50000x128, .f32⟩
  | .hbm, ⟨89, _⟩ => ⟨S128x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S128x256, .f32⟩
  | .hbm, ⟨96, _⟩ => ⟨S50000x256, .f32⟩
  | .hbm, ⟨97, _⟩ => ⟨S1x256, .f32⟩
  | .hbm, ⟨98, _⟩ => ⟨S50000x256, .f32⟩
  | .hbm, ⟨99, _⟩ => ⟨S50000x256, .f32⟩
  | .hbm, ⟨100, _⟩ => ⟨S_, .f32⟩
  | .hbm, ⟨101, _⟩ => ⟨S50000x256, .f32⟩
  | .hbm, ⟨102, _⟩ => ⟨S50000x256, .f32⟩
  | .hbm, ⟨103, _⟩ => ⟨S256x3, .f32⟩
  | .hbm, ⟨104, _⟩ => ⟨S50000x3, .f32⟩
  | .hbm, ⟨105, _⟩ => ⟨S1x3, .f32⟩
  | .hbm, ⟨106, _⟩ => ⟨S50000x3, .f32⟩
  | .hbm, ⟨107, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call0_cst : Ref sig .tc := ⟨.hbm, 100, rfl⟩
abbrev main_call0_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S3x256_S256x3_1_0 : S3x256.Transposes [1, 0] S256x3
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  dot_S50000x256_S256x3_S50000x3_1_0_0_1_n_n_wf : DotDims.WF S50000x256 S256x3 S50000x3 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x3_S50000x3_1_0_0_1_n_n : DotDims S50000x256 S256x3 S50000x3 where
  lhsContracting := [1]
  rhsContracting := [0]
  lhsNonContracting := [0]
  rhsNonContracting := [1]
  lhsBatch := []
  rhsBatch := []
  wf := dot_S50000x256_S256x3_S50000x3_1_0_0_1_n_n_wf

class Facts : Prop extends Facts₀ where

variable [Facts]
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.Spec.lean ====
/-
  The mathematics both programs compute, row by row, on the extended reals.

  A node's features pass through two neighbour-averaging layers and a small dense head, and every stage after the
  averaging acts on one node's row at a time. With `agg` the node's row of the neighbour average (both programs form the
  average by the same host operations, so it enters here as given) and `x` the node's own row, one layer is
      layer agg x Wl bl Wr (j) = (Σ_k agg(k)·Wl(k,j) + bl(j)) + Σ_k x(k)·Wr(k,j),
  and the head adds a skip projection of the input row, applies an affine map, clamps at zero from below, and applies a
  last affine map:
      s(j)   = layer agg2 h1 Wl2 bl2 Wr2 (j) + (Σ_k x(k)·Ws(k,j) + bs(j))
      hid(u) = max (Σ_j s(j)·W1(j,u) + b1(u)) 0
      out(o) = Σ_u hid(u)·W2(u,o) + b2(o).
  The weight matrices enter already transposed (rows indexed by the contracted coordinate), as both programs hand
  them to their products; a bias is a function of the feature index, whatever layout carries it. Only sums and products
  in a fixed grouping appear, so no finiteness is needed anywhere.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Mat (m n : Nat) : Type := FVec Ideal ⟨2, ![m, n]⟩ .f32
/-- A row of extended reals. -/
abbrev Row (n : Nat) : Type := Fin n → Ideal .f32

/-- Row `a` of a matrix. -/
def row {m n : Nat} (A : Mat m n) (a : Fin m) : Row n := fun c => A (ix2 a c)

theorem row_apply {m n : Nat} (A : Mat m n) (a : Fin m) (c : Fin n) : row A a c = A (ix2 a c) := rfl

/-- Entry `b` of a row times a k×n matrix. -/
def rowProd {k n : Nat} (a : Row k) (B : Mat k n) (b : Fin n) : Ideal .f32 :=
  ∑ c : Fin k, a c * B (ix2 c b)

/-- One neighbour-averaging layer on a node's rows, at feature `j`. -/
def layer {D : Nat} (agg x : Row D) (wl : Mat D D) (bl : Row D) (wr : Mat D D) (j : Fin D) : Ideal .f32 :=
  (rowProd agg wl j + bl j) + rowProd x wr j

/-- The second layer plus the skip projection of the input row, at feature `j`. -/
def skipSum {D : Nat} (agg2 h1 x : Row D) (wl2 : Mat D D) (bl2 : Row D) (wr2 ws : Mat D D) (bs : Row D)
    (j : Fin D) : Ideal .f32 :=
  layer agg2 h1 wl2 bl2 wr2 j + (rowProd x ws j + bs j)

/-- The hidden layer of the head at unit `u`: an affine map of the skip sum, clamped at zero from below. -/
def hidden {D H : Nat} (agg2 h1 x : Row D) (wl2 : Mat D D) (bl2 : Row D) (wr2 ws : Mat D D) (bs : Row D)
    (w1 : Mat D H) (b1 : Row H) (u : Fin H) : Ideal .f32 :=
  max (rowProd (skipSum agg2 h1 x wl2 bl2 wr2 ws bs) w1 u + b1 u) (Ideal.ofBits .f32 0x00000000#32)

/-- The head's output at class `o`. -/
def head {D H O : Nat} (agg2 h1 x : Row D) (wl2 : Mat D D) (bl2 : Row D) (wr2 ws : Mat D D) (bs : Row D)
    (w1 : Mat D H) (b1 : Row H) (w2 : Mat H O) (b2 : Row O) (o : Fin O) : Ideal .f32 :=
  rowProd (hidden agg2 h1 x wl2 bl2 wr2 ws bs w1 b1) w2 o + b2 o

/-- The first layer as one whole array: row `i 0`, feature `i 1`. -/
def layerArr {N D : Nat} (agg x : Mat N D) (wl : Mat D D) (bl : Row D) (wr : Mat D D) : Mat N D :=
  fun i => layer (row agg (i 0)) (row x (i 0)) wl bl wr (i 1)

/-- The head as one whole array: row `i 0`, class `i 1`. -/
def headArr {N D H O : Nat} (agg2 h1 x : Mat N D) (wl2 : Mat D D) (bl2 : Row D) (wr2 ws : Mat D D) (bs : Row D)
    (w1 : Mat D H) (b1 : Row H) (w2 : Mat H O) (b2 : Row O) : Mat N O :=
  fun i => head (row agg2 (i 0)) (row h1 (i 0)) (row x (i 0)) wl2 bl2 wr2 ws bs w1 b1 w2 b2 (i 1)

theorem layerArr_apply {N D : Nat} (agg x : Mat N D) (wl : Mat D D) (bl : Row D) (wr : Mat D D) (r : Fin N) (j : Fin D) :
    layerArr agg x wl bl wr (ix2 r j) = layer (row agg r) (row x r) wl bl wr j := rfl

theorem headArr_apply {N D H O : Nat} (agg2 h1 x : Mat N D) (wl2 : Mat D D) (bl2 : Row D) (wr2 ws : Mat D D) (bs : Row D)
    (w1 : Mat D H) (b1 : Row H) (w2 : Mat H O) (b2 : Row O) (r : Fin N) (o : Fin O) :
    headArr agg2 h1 x wl2 bl2 wr2 ws bs w1 b1 w2 b2 (ix2 r o)
      = head (row agg2 r) (row h1 r) (row x r) wl2 bl2 wr2 ws bs w1 b1 w2 b2 o := rfl

end Cert.Spec

end
-- ==== Proof.Body0.lean ====
/-
  The first layer's tile, entry by entry.

  At a grid point the body holds a 2000×128 tile of the neighbour average, the matching tile of the input features, the
  two 128×128 weight matrices (already transposed) and the bias as a 1×128 row. What it stores at (p, q) is the layer
  of the tiles' rows p,
      (Σ_k agg(p,k)·Wl(k,q) + bl(0,q)) + Σ_k x(p,k)·Wr(k,q):
  the narrowing of the products' operands to a shorter float format changes nothing on the extended reals, a product into
  the zero tile is the plain sum over the contracted coordinate, and the bias row is stretched down the tile's rows.
-/
import proofs.«168521_j38878043963420_1_alg».proof.Proof.Gen.KernelIdeal.Skeleton
import proofs.«168521_j38878043963420_1_alg».proof.Proof.LibTileOps
import proofs.«168521_j38878043963420_1_alg».proof.Proof.Spec

noncomputable section

open scoped BigOperators

namespace Cert.KernelIdeal.Body

open Idealize.ShloMosaic Idealize.ShloMosaic.ValueIdx Cert.KernelIdeal Cert.KernelIdeal.Gen

/-- A 2000×128 tile times a 128×128 matrix into the zero tile, at (p, q). -/
theorem mm_128_128 (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ c : Fin 128, A (ix2 p c) * B (ix2 c q) :=
  TileOps.matmul_zero_apply dot_S2000x128_S128x128_S2000x128_1_0_0_1_n_n_wf none A B p q

/-- What the first region's body stores at (p, q) of its tile. -/
theorem pay0_apply (agg x : Vec Ideal S2000x128 .f32) (wl wr : Vec Ideal S128x128 .f32) (bl : Vec Ideal S1x128 .f32)
    (p : Fin 2000) (q : Fin 128) :
    k0_pay1 (F := Ideal) agg x wl wr bl (ix2 p q)
      = Spec.layer (Spec.row agg p) (Spec.row x p) wl (fun j => bl (ix2 (0 : Fin 1) j)) wr q := by
  unfold k0_pay1
  simp only [shapeCast_self]
  show matmul (F := Ideal) dot_S2000x128_S128x128_S2000x128_1_0_0_1_n_n none (truncf .bf16 agg bitsLt_bf16_f32)
        (truncf .bf16 wl bitsLt_bf16_f32) (constant S2000x128 .f32 0x00000000#32) (ix2 p q)
      + broadcastTo S2000x128 bl broadcasts_S1x128_S2000x128 (ix2 p q)
      + matmul (F := Ideal) dot_S2000x128_S128x128_S2000x128_1_0_0_1_n_n none (truncf .bf16 x bitsLt_bf16_f32)
        (truncf .bf16 wr bitsLt_bf16_f32) (constant S2000x128 .f32 0x00000000#32) (ix2 p q) = _
  rw [mm_128_128, mm_128_128, TileOps.broadcastRow_apply]
  rfl

end Cert.KernelIdeal.Body

end
-- ==== Proof.Region0.lean ====
/-
  The first layer's output array, whole.

  The region walks 25 grid points; point t holds rows 2000·t … 2000·t + 1999 of the neighbour average and of the input
  features (all 128 columns), the whole of each weight matrix and of the bias row, and writes back rows
  2000·t … 2000·t + 1999 of the output. Row p of point t's tiles is row 2000·t + p of the arrays, the 25 row bands
  tile the 50000 rows, so the output array ends holding the layer of every node's rows.
-/
import proofs.«168521_j38878043963420_1_alg».proof.Proof.Gen.KernelIdeal.Frame
import proofs.«168521_j38878043963420_1_alg».proof.Proof.Body0
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds, as one array. -/
abbrev G (c : Dev nD) : Spec.Mat 50000 128 :=
  Spec.layerArr (V c main_v22) (V c main_arg0) (V c main_v23) (fun j => V c main_v24 (ix2 (0 : Fin 1) j)) (V c main_v25)

/-- The printed index maps over the grid: the three row-banded windows sit at block (t, 0), the three whole-array
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 25 := lt_of_lt_of_eq t.isLt N_0

/-- Row `p` of point `t`'s band is row 2000·t + p of the array. -/
def bandRow (t : Fin cfg0.N) (p : Fin 2000) : Fin 50000 :=
  ⟨t.val * 2000 + p.val, by have := t_lt t; have := p.isLt; omega⟩

theorem emb_band0 (t : Fin cfg0.N) (p : Fin 2000) (k : Fin 128) :
    ((cfg0.win 0).blk t).view.emb (ix2 p k) = ix2 (bandRow t p) k := by
  obtain ⟨e00, e01, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem emb_band1 (t : Fin cfg0.N) (p : Fin 2000) (k : Fin 128) :
    ((cfg0.win 1).blk t).view.emb (ix2 p k) = ix2 (bandRow t p) k := by
  obtain ⟨-, -, e10, e11, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem emb_band5 (t : Fin cfg0.N) (p : Fin 2000) (k : Fin 128) :
    ((cfg0.win 5).blk t).view.emb (ix2 p k) = ix2 (bandRow t p) k := by
  obtain ⟨-, -, -, -, -, -, -, -, -, -, e50, e51⟩ := idx_facts t
  funext a; apply Fin.ext
  match a with
  | ⟨0, _⟩ => show win0_5.index t (0 : Fin 2) * 2000 + 1 * p.val = t.val * 2000 + p.val; omega
  | ⟨1, _⟩ => show win0_5.index t (1 : Fin 2) * 128 + 1 * k.val = k.val; omega

theorem emb_whole2 (t : Fin cfg0.N) (y : S128x128.Idx) : ((cfg0.win 2).blk t).view.emb y = y := by
  obtain ⟨-, -, -, -, e20, e21, -⟩ := idx_facts t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem emb_whole3 (t : Fin cfg0.N) (y : S1x128.Idx) : ((cfg0.win 3).blk t).view.emb y = y := by
  obtain ⟨-, -, -, -, -, -, e30, e31, -⟩ := idx_facts t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem emb_whole4 (t : Fin cfg0.N) (y : S128x128.Idx) : ((cfg0.win 4).blk t).view.emb y = y := by
  obtain ⟨-, -, -, -, -, -, -, -, e40, e41, -⟩ := idx_facts t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The row-banded input blocks, row by row, and the whole-array input blocks, as the arrays the region finds. -/
theorem row_blk0 (c : Dev nD) (t : Fin cfg0.N) (p : Fin 2000) :
    Spec.row (iblk0 V c 0 t) p = Spec.row (V c main_v22) (bandRow t p) :=
  funext fun k => by
    show V c main_v22 (((cfg0.win 0).blk t).view.emb (ix2 p k)) = V c main_v22 (ix2 (bandRow t p) k)
    rw [emb_band0]

theorem row_blk1 (c : Dev nD) (t : Fin cfg0.N) (p : Fin 2000) :
    Spec.row (iblk0 V c 1 t) p = Spec.row (V c main_arg0) (bandRow t p) :=
  funext fun k => by
    show V c main_arg0 (((cfg0.win 1).blk t).view.emb (ix2 p k)) = V c main_arg0 (ix2 (bandRow t p) k)
    rw [emb_band1]

theorem blk2 (c : Dev nD) (t : Fin cfg0.N) : (iblk0 V c 2 t : Spec.Mat 128 128) = V c main_v23 :=
  funext fun y => by
    show V c main_v23 (((cfg0.win 2).blk t).view.emb y) = V c main_v23 y
    rw [emb_whole2]

theorem blk3 (c : Dev nD) (t : Fin cfg0.N) : (iblk0 V c 3 t : Spec.Mat 1 128) = V c main_v24 :=
  funext fun y => by
    show V c main_v24 (((cfg0.win 3).blk t).view.emb y) = V c main_v24 y
    rw [emb_whole3]

theorem blk4 (c : Dev nD) (t : Fin cfg0.N) : (iblk0 V c 4 t : Spec.Mat 128 128) = V c main_v25 :=
  funext fun y => by
    show V c main_v25 (((cfg0.win 4).blk t).view.emb y) = V c main_v25 y
    rw [emb_whole4]

/-- What point `t` writes back is block `t` of the layer array. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 4 t) (iblk0 V c 3 t) (ix2 p q)
      = G V c (((cfg0.win 5).blk t).view.emb (ix2 p q))
  refine (Body.pay0_apply (iblk0 V c 0 t) (iblk0 V c 1 t) (iblk0 V c 2 t) (iblk0 V c 4 t) (iblk0 V c 3 t) p q).trans ?_
  rw [emb_band5, row_blk0, row_blk1, blk2, blk3, blk4]
  rfl

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v26).slice (win0_5.rect t)).set ↔ _
  rw [View.set_slice_whole, Rect.mem_set_unit]
  exact Iff.rfl

/-- Every index of the output array is in some flushing point's block: row r is in band r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the layer of the arrays the region found. -/
theorem final (c : Dev nD) : (dat0 (F := Ideal) V c).arrAt 5 cfg0.N = G V c :=
  (dat0 V c).arrAt_eq_of_cover 5 (G V c) (fun t _ => flushed_eq V c t) (cover)

end Cert.KernelIdeal.Region0

end
-- ==== Proof.Body1.lean ====
/-
  The head's tile, entry by entry.

  At a grid point the body holds 2000×128 tiles of the second neighbour average, of the first layer's output and of
  the input features, the weight matrices (already transposed) and the biases as 1×n rows. It forms the second layer
  of the tiles' rows plus the skip projection, multiplies by the 128×256 matrix, adds its bias, clamps at zero from
  below, multiplies by the 256×3 matrix and adds the last bias. Entry (p, o) of what it stores is therefore the head
  of the three tiles' rows p. The narrowings to a shorter float format between the products are the identity on the
  extended reals, and each product into the zero tile is the plain sum over the contracted coordinate.
-/
import proofs.«168521_j38878043963420_1_alg».proof.Proof.Body0

noncomputable section

open scoped BigOperators

namespace Cert.KernelIdeal.Body

open Idealize.ShloMosaic Idealize.ShloMosaic.ValueIdx Cert.KernelIdeal Cert.KernelIdeal.Gen

/-- A 2000×128 tile times a 128×256 matrix into the zero tile, at (p, u). -/
theorem mm_128_256 (A : FVec Ideal S2000x128 .bf16) (B : FVec Ideal S128x256 .bf16) (p : Fin 2000) (u : Fin 256) :
    matmul dot_S2000x128_S128x256_S2000x256_1_0_0_1_n_n none A B (constant (F := Ideal) S2000x256 .f32 0x00000000#32) (ix2 p u)
      = ∑ c : Fin 128, A (ix2 p c) * B (ix2 c u) :=
  TileOps.matmul_zero_apply dot_S2000x128_S128x256_S2000x256_1_0_0_1_n_n_wf none A B p u

/-- A 2000×256 tile times a 256×3 matrix into the zero tile, at (p, o). -/
theorem mm_256_3 (A : FVec Ideal S2000x256 .bf16) (B : FVec Ideal S256x3 .bf16) (p : Fin 2000) (o : Fin 3) :
    matmul dot_S2000x256_S256x3_S2000x3_1_0_0_1_n_n none A B (constant (F := Ideal) S2000x3 .f32 0x00000000#32) (ix2 p o)
      = ∑ c : Fin 256, A (ix2 p c) * B (ix2 c o) :=
  TileOps.matmul_zero_apply dot_S2000x256_S256x3_S2000x3_1_0_0_1_n_n_wf none A B p o

/-- The tile of the second layer plus the skip projection, as the body forms it. -/
def skipTile (agg2 h1 x : Vec Ideal S2000x128 .f32) (wl2 wr2 ws : Vec Ideal S128x128 .f32) (bl2 bs : Vec Ideal S1x128 .f32) :
    FVec Ideal S2000x128 .f32 :=
  addf
    (addf
      (addf
        (matmul dot_S2000x128_S128x128_S2000x128_1_0_0_1_n_n none (truncf .bf16 agg2 bitsLt_bf16_f32)
          (truncf .bf16 wl2 bitsLt_bf16_f32) (constant S2000x128 .f32 0x00000000#32))
        (broadcastTo S2000x128 bl2 broadcasts_S1x128_S2000x128))
      (matmul dot_S2000x128_S128x128_S2000x128_1_0_0_1_n_n none (truncf .bf16 h1 bitsLt_bf16_f32)
        (truncf .bf16 wr2 bitsLt_bf16_f32) (constant S2000x128 .f32 0x00000000#32)))
    (addf
      (matmul dot_S2000x128_S128x128_S2000x128_1_0_0_1_n_n none (truncf .bf16 x bitsLt_bf16_f32)
        (truncf .bf16 ws bitsLt_bf16_f32) (constant S2000x128 .f32 0x00000000#32))
      (broadcastTo S2000x128 bs broadcasts_S1x128_S2000x128))

/-- Entry (p, j) of that tile is the skip sum of the tiles' rows p. -/
theorem skipTile_apply (agg2 h1 x : Vec Ideal S2000x128 .f32) (wl2 wr2 ws : Vec Ideal S128x128 .f32)
    (bl2 bs : Vec Ideal S1x128 .f32) (p : Fin 2000) (j : Fin 128) :
    skipTile agg2 h1 x wl2 wr2 ws bl2 bs (ix2 p j)
      = Spec.skipSum (Spec.row agg2 p) (Spec.row h1 p) (Spec.row x p) wl2 (fun j => bl2 (ix2 (0 : Fin 1) j)) wr2 ws
          (fun j => bs (ix2 (0 : Fin 1) j)) j := by
  unfold skipTile
  simp only [addf_apply]
  rw [mm_128_128, mm_128_128, mm_128_128, TileOps.broadcastRow_apply, TileOps.broadcastRow_apply]
  rfl

/-- The body's first product chain is the skip tile times the 128×256 matrix. -/
theorem pay2_eq (agg2 h1 x : Vec Ideal S2000x128 .f32) (wl2 wr2 ws : Vec Ideal S128x128 .f32)
    (bl2 bs : Vec Ideal S1x128 .f32) (w1 : Vec Ideal S128x256 .f32) :
    k1_pay2 (F := Ideal) agg2 h1 x wl2 wr2 ws bl2 bs w1
      = matmul dot_S2000x128_S128x256_S2000x256_1_0_0_1_n_n none
          (truncf .bf16 (skipTile agg2 h1 x wl2 wr2 ws bl2 bs) bitsLt_bf16_f32) (truncf .bf16 w1 bitsLt_bf16_f32)
          (constant S2000x256 .f32 0x00000000#32) := by
  unfold k1_pay2 skipTile
  simp only [shapeCast_self]

/-- Entry (p, u) of it: the skip sums of row p against column u of the matrix. -/
theorem pay2_apply (agg2 h1 x : Vec Ideal S2000x128 .f32) (wl2 wr2 ws : Vec Ideal S128x128 .f32)
    (bl2 bs : Vec Ideal S1x128 .f32) (w1 : Vec Ideal S128x256 .f32) (p : Fin 2000) (u : Fin 256) :
    k1_pay2 (F := Ideal) agg2 h1 x wl2 wr2 ws bl2 bs w1 (ix2 p u)
      = Spec.rowProd (Spec.skipSum (Spec.row agg2 p) (Spec.row h1 p) (Spec.row x p) wl2 (fun j => bl2 (ix2 (0 : Fin 1) j))
          wr2 ws (fun j => bs (ix2 (0 : Fin 1) j))) w1 u := by
  rw [pay2_eq, mm_128_256]
  refine Finset.sum_congr rfl fun j _ => ?_
  show skipTile agg2 h1 x wl2 wr2 ws bl2 bs (ix2 p j) * w1 (ix2 j u) = _
  rw [skipTile_apply]

/-- The rest of the body on a 2000×256 tile `z`: bias, clamp at zero, the last product, the last bias. -/
theorem pay1_apply (z : FVec Ideal S2000x256 .f32) (b1 : Vec Ideal S1x256 .f32) (w2 : Vec Ideal S256x3 .f32)
    (b2 : Vec Ideal S1x3 .f32) (p : Fin 2000) (o : Fin 3) :
    k1_pay1 (F := Ideal) z b1 w2 b2 (ix2 p o)
      = Spec.rowProd (fun u => max (z (ix2 p u) + b1 (ix2 (0 : Fin 1) u)) (Ideal.ofBits .f32 0x00000000#32)) w2 o
          + b2 (ix2 (0 : Fin 1) o) := by
  unfold k1_pay1
  simp only [shapeCast_self]
  show matmul (F := Ideal) dot_S2000x256_S256x3_S2000x3_1_0_0_1_n_n none
        (truncf .bf16 (maximumf (addf z (broadcastTo S2000x256 b1 broadcasts_S1x256_S2000x256))
          (broadcast S2000x256 (Scalar.ofBits .f32 0x00000000#32))) bitsLt_bf16_f32)
        (truncf .bf16 w2 bitsLt_bf16_f32) (constant S2000x3 .f32 0x00000000#32) (ix2 p o)
      + broadcastTo S2000x3 b2 broadcasts_S1x3_S2000x3 (ix2 p o) = _
  rw [mm_256_3, TileOps.broadcastRow_apply]
  refine congrArg (· + b2 (ix2 (0 : Fin 1) o)) (Finset.sum_congr rfl fun u _ => ?_)
  show max (z (ix2 p u) + broadcastTo S2000x256 b1 broadcasts_S1x256_S2000x256 (ix2 p u)) _ * w2 (ix2 u o) = _
  rw [TileOps.broadcastRow_apply]
  rfl

/-- What the second region's body stores at (p, o) of its tile: the head of the three tiles' rows p. -/
theorem pay_head_apply (agg2 h1 x : Vec Ideal S2000x128 .f32) (wl2 wr2 ws : Vec Ideal S128x128 .f32)
    (bl2 bs : Vec Ideal S1x128 .f32) (w1 : Vec Ideal S128x256 .f32) (b1 : Vec Ideal S1x256 .f32)
    (w2 : Vec Ideal S256x3 .f32) (b2 : Vec Ideal S1x3 .f32) (p : Fin 2000) (o : Fin 3) :
    k1_pay1 (F := Ideal) (k1_pay2 agg2 h1 x wl2 wr2 ws bl2 bs w1) b1 w2 b2 (ix2 p o)
      = Spec.head (Spec.row agg2 p) (Spec.row h1 p) (Spec.row x p) wl2 (fun j => bl2 (ix2 (0 : Fin 1) j)) wr2 ws
          (fun j => bs (ix2 (0 : Fin 1) j)) w1 (fun u => b1 (ix2 (0 : Fin 1) u)) w2 (fun o => b2 (ix2 (0 : Fin 1) o)) o := by
  rw [pay1_apply]
  unfold Spec.head Spec.hidden
  simp only [pay2_apply]

end Cert.KernelIdeal.Body

end
-- ==== Proof.Region1.lean ====
/-
  The head's output array, whole.

  The region walks 25 grid points; point t holds rows 2000·t … 2000·t + 1999 of the second neighbour average, of the
  first layer's output and of the input features (all 128 columns), the whole of every weight matrix and bias row, and
  writes back rows 2000·t … 2000·t + 1999 of the 50000×3 output. Row p of point t's tiles is row 2000·t + p of the
  arrays, the 25 row bands tile the 50000 rows, so the output array ends holding the head of every node's rows.
-/
import proofs.«168521_j38878043963420_1_alg».proof.Proof.Gen.KernelIdeal.Frame
import proofs.«168521_j38878043963420_1_alg».proof.Proof.Body1
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The head of the arrays the region finds, as one array. -/
abbrev G (c : Dev nD) : Spec.Mat 50000 3 :=
  Spec.headArr (V c main_v49) (V c main_v26) (V c main_arg0) (V c main_v50) (fun j => V c main_v51 (ix2 (0 : Fin 1) j))
    (V c main_v52) (V c main_v53) (fun j => V c main_v54 (ix2 (0 : Fin 1) j)) (V c main_v55)
    (fun u => V c main_v56 (ix2 (0 : Fin 1) u)) (V c main_v57) (fun o => V c main_v58 (ix2 (0 : Fin 1) o))

/-- The printed index maps over the grid: the four row-banded windows sit at block (t, 0), the nine whole-array
    windows at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = t.val
    ∧ win1_12.index t (1 : Fin 2) = 0 :=
  (by decide +kernel : ∀ t : Fin grid1.N, _)

theorem t_lt (t : Fin cfg1.N) : t.val < 25 := lt_of_lt_of_eq t.isLt N_1

/-- Row `p` of point `t`'s band is row 2000·t + p of the array. -/
def bandRow (t : Fin cfg1.N) (p : Fin 2000) : Fin 50000 :=
  ⟨t.val * 2000 + p.val, by have := t_lt t; have := p.isLt; omega⟩

theorem emb_band0 (t : Fin cfg1.N) (p : Fin 2000) (k : Fin 128) :
    ((cfg1.win 0).blk t).view.emb (ix2 p k) = ix2 (bandRow t p) k := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem emb_band1 (t : Fin cfg1.N) (p : Fin 2000) (k : Fin 128) :
    ((cfg1.win 1).blk t).view.emb (ix2 p k) = ix2 (bandRow t p) k := by
  obtain ⟨-, -, e0, e1, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

theorem emb_band2 (t : Fin cfg1.N) (p : Fin 2000) (k : Fin 128) :
    ((cfg1.win 2).blk t).view.emb (ix2 p k) = ix2 (bandRow t p) k := by
  obtain ⟨-, -, -, -, e0, e1, -⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 128 + 1 * k.val = k.val; omega

theorem emb_band12 (t : Fin cfg1.N) (p : Fin 2000) (k : Fin 3) :
    ((cfg1.win 12).blk t).view.emb (ix2 p k) = ix2 (bandRow t p) k := by
  obtain ⟨-, -, -, -, -, -, -, -, -, -, -, -, -, -, -, -, -, -, -, -, -, -, -, -, e0, e1⟩ := idx_facts t
  funext a; apply Fin.ext
  match a with
  | ⟨0, _⟩ => show win1_12.index t (0 : Fin 2) * 2000 + 1 * p.val = t.val * 2000 + p.val; omega
  | ⟨1, _⟩ => show win1_12.index t (1 : Fin 2) * 3 + 1 * k.val = k.val; omega

theorem emb_whole3 (t : Fin cfg1.N) (y : S128x128.Idx) : ((cfg1.win 3).blk t).view.emb y = y := by
  obtain ⟨-, -, -, -, -, -, e0, e1, -⟩ := idx_facts t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem emb_whole4 (t : Fin cfg1.N) (y : S1x128.Idx) : ((cfg1.win 4).blk t).view.emb y = y := by
  obtain ⟨-, -, -, -, -, -, -, -, e0, e1, -⟩ := idx_facts t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem emb_whole5 (t : Fin cfg1.N) (y : S128x128.Idx) : ((cfg1.win 5).blk t).view.emb y = y := by
  obtain ⟨-, -, -, -, -, -, -, -, -, -, e0, e1, -⟩ := idx_facts t
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem emb_whole6 (t : Fin cfg1.N) (y : S128x128.Idx) : ((cfg1.win 6).blk t).view.emb y = y := by
  obtain ⟨-, -, -, -, -, -, -, -, -, -, -, -, e0, e1, -⟩ := idx_facts t
  funext a; apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

theorem emb_whole7 (t : Fin cfg1.N) (y : S1x128.Idx) : ((cfg1.win 7).blk t).view.emb y = y := by
  obtain ⟨-, -, -, -, -, -, -, -, -, -, -, -, -, -, e0, e1, -⟩ := idx_facts t
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

theorem emb_whole8 (t : Fin cfg1.N) (y : S128x256.Idx) : ((cfg1.win 8).blk t).view.emb y = y := by
  obtain ⟨-, -, -, -, -, -, -, -, -, -, -, -, -, -, -, -, e0, e1, -⟩ := idx_facts t
  funext a; apply Fin.ext
  match a with
  | ⟨0, _⟩ => show win1_8.index t (0 : Fin 2) * 128 + 1 * (y 0).val = (y 0).val; omega
  | ⟨1, _⟩ => show win1_8.index t (1 : Fin 2) * 256 + 1 * (y 1).val = (y 1).val; omega

theorem emb_whole9 (t : Fin cfg1.N) (y : S1x256.Idx) : ((cfg1.win 9).blk t).view.emb y = y := by
  obtain ⟨-, -, -, -, -, -, -, -, -, -, -, -, -, -, -, -, -, -, e0, e1, -⟩ := idx_facts t
  funext a; apply Fin.ext
  match a with
  | ⟨0, _⟩ => show win1_9.index t (0 : Fin 2) * 1 + 1 * (y 0).val = (y 0).val; omega
  | ⟨1, _⟩ => show win1_9.index t (1 : Fin 2) * 256 + 1 * (y 1).val = (y 1).val; omega

theorem emb_whole10 (t : Fin cfg1.N) (y : S256x3.Idx) : ((cfg1.win 10).blk t).view.emb y = y := by
  obtain ⟨-, -, -, -, -, -, -, -, -, -, -, -, -, -, -, -, -, -, -, -, e0, e1, -⟩ := idx_facts t
  funext a; apply Fin.ext
  match a with
  | ⟨0, _⟩ => show win1_10.index t (0 : Fin 2) * 256 + 1 * (y 0).val = (y 0).val; omega
  | ⟨1, _⟩ => show win1_10.index t (1 : Fin 2) * 3 + 1 * (y 1).val = (y 1).val; omega

theorem emb_whole11 (t : Fin cfg1.N) (y : S1x3.Idx) : ((cfg1.win 11).blk t).view.emb y = y := by
  obtain ⟨-, -, -, -, -, -, -, -, -, -, -, -, -, -, -, -, -, -, -, -, -, -, e0, e1, -⟩ := idx_facts t
  funext a; apply Fin.ext
  match a with
  | ⟨0, _⟩ => show win1_11.index t (0 : Fin 2) * 1 + 1 * (y 0).val = (y 0).val; omega
  | ⟨1, _⟩ => show win1_11.index t (1 : Fin 2) * 3 + 1 * (y 1).val = (y 1).val; omega

/-- The row-banded input blocks, row by row, and the whole-array input blocks, as the arrays the region finds. -/
theorem row_blk0 (c : Dev nD) (t : Fin cfg1.N) (p : Fin 2000) :
    Spec.row (iblk1 V c 0 t) p = Spec.row (V c main_v49) (bandRow t p) :=
  funext fun k => by
    show V c main_v49 (((cfg1.win 0).blk t).view.emb (ix2 p k)) = V c main_v49 (ix2 (bandRow t p) k)
    rw [emb_band0]

theorem row_blk1 (c : Dev nD) (t : Fin cfg1.N) (p : Fin 2000) :
    Spec.row (iblk1 V c 1 t) p = Spec.row (V c main_v26) (bandRow t p) :=
  funext fun k => by
    show V c main_v26 (((cfg1.win 1).blk t).view.emb (ix2 p k)) = V c main_v26 (ix2 (bandRow t p) k)
    rw [emb_band1]

theorem row_blk2 (c : Dev nD) (t : Fin cfg1.N) (p : Fin 2000) :
    Spec.row (iblk1 V c 2 t) p = Spec.row (V c main_arg0) (bandRow t p) :=
  funext fun k => by
    show V c main_arg0 (((cfg1.win 2).blk t).view.emb (ix2 p k)) = V c main_arg0 (ix2 (bandRow t p) k)
    rw [emb_band2]

theorem blk3 (c : Dev nD) (t : Fin cfg1.N) : (iblk1 V c 3 t : Spec.Mat 128 128) = V c main_v50 :=
  funext fun y => by
    show V c main_v50 (((cfg1.win 3).blk t).view.emb y) = V c main_v50 y
    rw [emb_whole3]

theorem blk4 (c : Dev nD) (t : Fin cfg1.N) : (iblk1 V c 4 t : Spec.Mat 1 128) = V c main_v51 :=
  funext fun y => by
    show V c main_v51 (((cfg1.win 4).blk t).view.emb y) = V c main_v51 y
    rw [emb_whole4]

theorem blk5 (c : Dev nD) (t : Fin cfg1.N) : (iblk1 V c 5 t : Spec.Mat 128 128) = V c main_v52 :=
  funext fun y => by
    show V c main_v52 (((cfg1.win 5).blk t).view.emb y) = V c main_v52 y
    rw [emb_whole5]

theorem blk6 (c : Dev nD) (t : Fin cfg1.N) : (iblk1 V c 6 t : Spec.Mat 128 128) = V c main_v53 :=
  funext fun y => by
    show V c main_v53 (((cfg1.win 6).blk t).view.emb y) = V c main_v53 y
    rw [emb_whole6]

theorem blk7 (c : Dev nD) (t : Fin cfg1.N) : (iblk1 V c 7 t : Spec.Mat 1 128) = V c main_v54 :=
  funext fun y => by
    show V c main_v54 (((cfg1.win 7).blk t).view.emb y) = V c main_v54 y
    rw [emb_whole7]

theorem blk8 (c : Dev nD) (t : Fin cfg1.N) : (iblk1 V c 8 t : Spec.Mat 128 256) = V c main_v55 :=
  funext fun y => by
    show V c main_v55 (((cfg1.win 8).blk t).view.emb y) = V c main_v55 y
    rw [emb_whole8]

theorem blk9 (c : Dev nD) (t : Fin cfg1.N) : (iblk1 V c 9 t : Spec.Mat 1 256) = V c main_v56 :=
  funext fun y => by
    show V c main_v56 (((cfg1.win 9).blk t).view.emb y) = V c main_v56 y
    rw [emb_whole9]

theorem blk10 (c : Dev nD) (t : Fin cfg1.N) : (iblk1 V c 10 t : Spec.Mat 256 3) = V c main_v57 :=
  funext fun y => by
    show V c main_v57 (((cfg1.win 10).blk t).view.emb y) = V c main_v57 y
    rw [emb_whole10]

theorem blk11 (c : Dev nD) (t : Fin cfg1.N) : (iblk1 V c 11 t : Spec.Mat 1 3) = V c main_v58 :=
  funext fun y => by
    show V c main_v58 (((cfg1.win 11).blk t).view.emb y) = V c main_v58 y
    rw [emb_whole11]

/-- What point `t` writes back is block `t` of the head array. -/
theorem flushed_eq (c : Dev nD) (t : Fin cfg1.N) :
    (dat1 (F := Ideal) V c).flushed 12 t = ((cfg1.win 12).blk t).view.read (Elt Ideal) (G V c) := by
  show (cfg1.win 12).cut (grid1.coords t) ((dat1 V c).after 12 t) = _
  rw [after1_12]
  unfold out1_12
  rw [View.canon_unit_zero hz]
  simp only [View.ld_unit_zero (S := S2000x128) hz, View.ld_unit_zero (S := S128x128) hz, View.ld_unit_zero (S := S1x128) hz,
    View.ld_unit_zero (S := S128x256) hz, View.ld_unit_zero (S := S1x256) hz, View.ld_unit_zero (S := S256x3) hz,
    View.ld_unit_zero (S := S1x3) hz]
  funext j
  obtain ⟨p, o, rfl⟩ : ∃ (p : Fin 2000) (o : Fin 3), j = ix2 p o := ⟨j 0, j 1, eq_ix2 j⟩
  show k1_pay1 (k1_pay2 (iblk1 V c 0 t) (iblk1 V c 1 t) (iblk1 V c 2 t) (iblk1 V c 3 t) (iblk1 V c 5 t) (iblk1 V c 6 t)
        (iblk1 V c 4 t) (iblk1 V c 7 t) (iblk1 V c 8 t)) (iblk1 V c 9 t) (iblk1 V c 10 t) (iblk1 V c 11 t) (ix2 p o)
      = G V c (((cfg1.win 12).blk t).view.emb (ix2 p o))
  refine (Body.pay_head_apply (iblk1 V c 0 t) (iblk1 V c 1 t) (iblk1 V c 2 t) (iblk1 V c 3 t) (iblk1 V c 5 t)
    (iblk1 V c 6 t) (iblk1 V c 4 t) (iblk1 V c 7 t) (iblk1 V c 8 t) (iblk1 V c 9 t) (iblk1 V c 10 t) (iblk1 V c 11 t) p o).trans ?_
  rw [emb_band12, row_blk0, row_blk1, row_blk2, blk3, blk4, blk5, blk6, blk7, blk8, blk9, blk10, blk11]
  rfl

/-- An index of the output array is in point `t`'s block iff each coordinate is in the block's range on its axis. -/
theorem mem_blk (t : Fin cfg1.N) (i : S50000x3.Idx) :
    i ∈ ((cfg1.win 12).blk t).view.set ↔ ∀ a : Fin 2, win1_12.index t a * S2000x3.size a ≤ (i a).val
      ∧ (i a).val < win1_12.index t a * S2000x3.size a + S2000x3.size a := by
  show i ∈ ((View.whole main_v59).slice (win1_12.rect t)).set ↔ _
  rw [View.set_slice_whole, Rect.mem_set_unit]
  exact Iff.rfl

/-- Every index of the output array is in some flushing point's block: row r is in band r / 2000. -/
theorem cover (i : S50000x3.Idx) :
    ∃ t : Fin cfg1.N, (cfg1.win 12).flush t = true ∧ i ∈ ((cfg1.win 12).blk t).view.set := by
  have hi0 : (i 0).val < 50000 := (i 0).isLt
  have hi1 : (i 1).val < 3 := (i 1).isLt
  let t : Fin cfg1.N := ⟨(i 0).val / 2000, by rw [show cfg1.N = 25 from N_1]; omega⟩
  obtain ⟨-, -, -, -, -, -, -, -, -, -, -, -, -, -, -, -, -, -, -, -, -, -, -, -, e0, e1⟩ := idx_facts t
  have ht : t.val = (i 0).val / 2000 := rfl
  refine ⟨t, flush1_12 t, ?_⟩
  rw [mem_blk]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 3 ≤ (i 1).val ∧ (i 1).val < win1_12.index t (1 : Fin 2) * 3 + 3; omega

/-- The output array after the region: the head of the arrays the region found. -/
theorem final (c : Dev nD) : (dat1 (F := Ideal) V c).arrAt 12 cfg1.N = G V c :=
  (dat1 V c).arrAt_eq_of_cover 12 (G V c) (fun t _ => flushed_eq V c t) (cover)

end Cert.KernelIdeal.Region1

end
-- ==== Proof.LibRowForm.lean ====
/-
  A vector recast as a one-row matrix, read at an index.
-/
import Idealize.ShloMosaic.Lib.ValueIdx
import Idealize.ShloMosaic.Lib.Pipeline.Value

namespace Cert.RowForm

open Idealize.ShloMosaic

/-- A vector of length `n` recast as a `1 × n` matrix, read at row `0` and column `j`, is the vector at `j`. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ValueIdx.ix2 (0 : Fin 1) j) = v (ValueIdx.ix1 j) := by
  rw [shapeCast_addUnit_apply ![n] v h]
  congr 1
  funext a
  match a with
  | ⟨0, _⟩ => rfl

end Cert.RowForm
-- ==== Proof.HostRead.lean ====
/-
  What the host operations leave at each region's entry.

  Before the first region the host forms the neighbour average of the input features (a gather of source rows, two
  scatter-adds by destination, a division), transposes two weight matrices and recasts a bias vector as a 1×128 row.
  Between the regions it does the same with the first region's output and the second edge list, and prepares the
  remaining weights and biases. Each buffer a region reads is thereby a term of the launch contents (and, after the
  first region, of that region's output array). The averaging operations are, operation for operation, the
  reference's own, so the kernel's average IS the reference's stage of the same operands.
-/
import proofs.«168521_j38878043963420_1_alg».proof.Proof.Gen.KernelIdeal.Frame
import proofs.«168521_j38878043963420_1_alg».proof.Proof.Gen.ReferenceIdeal.Read
import proofs.«168521_j38878043963420_1_alg».proof.Proof.LibRowForm
import proofs.«168521_j38878043963420_1_alg».proof.Proof.Spec
import Idealize.ShloMosaic.Lib.StableHlo.Run

set_option maxRecDepth 16384

noncomputable section

namespace Cert.KernelIdeal.HostRead

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## At the first region's entry -/

theorem s0_arg0 : (V1 m ρ c main_arg0 : Spec.Mat 50000 128) = (m ((c : Thread nD τ).loc main_arg0)) := by
  show StableHlo.after hostOps0 (W0 m ρ c) (Proc.devRef .tc main_arg0) = _
  after_results_simp

/-- The first neighbour average is the reference's stage of the same two arguments. -/
theorem s0_v22 : (V1 m ρ c main_v22 : Spec.Mat 50000 128) = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

theorem s0_v23 : (V1 m ρ c main_v23 : Spec.Mat 128 128) = Cert.ReferenceIdeal.Read.val_main_v23 (F := Ideal) (m ((c : Thread nD τ).loc main_arg3)) := by
  show StableHlo.after hostOps0 (W0 m ρ c) (Proc.devRef .tc main_v23) = _
  after_results_simp
  rfl

theorem s0_v25 : (V1 m ρ c main_v25 : Spec.Mat 128 128) = Cert.ReferenceIdeal.Read.val_main_v28 (F := Ideal) (m ((c : Thread nD τ).loc main_arg5)) := by
  show StableHlo.after hostOps0 (W0 m ρ c) (Proc.devRef .tc main_v25) = _
  after_results_simp
  rfl

/-- The first bias, recast as a row, read at column j. -/
theorem s0_v24 (j : Fin 128) : (V1 m ρ c main_v24 : Spec.Mat 1 128) (ix2 (0 : Fin 1) j) = (m ((c : Thread nD τ).loc main_arg4)) (ix1 j) := by
  have e : (V1 m ρ c main_v24 : Spec.Mat 1 128) = shapeCast S1x128 (m ((c : Thread nD τ).loc main_arg4)) shapeCasts_S128_S1x128 := by
    show StableHlo.after hostOps0 (W0 m ρ c) (Proc.devRef .tc main_v24) = _
    after_results_simp
    rfl
  rw [e]
  exact Cert.RowForm.row_of_reshape _ _ j

/-! ## At the second region's entry, over the first region's exit contents -/

/-- The first region's exit contents at an argument no window of it writes: the launch contents. -/
theorem w2_arg (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem w2_arg2 : W2 m ρ c (Proc.devRef .tc main_arg2) = (m ((c : Thread nD τ).loc main_arg2)) :=
  w2_arg m ρ c main_arg2 (by decide) (by after_results_simp)

theorem w2_arg6 : W2 m ρ c (Proc.devRef .tc main_arg6) = (m ((c : Thread nD τ).loc main_arg6)) :=
  w2_arg m ρ c main_arg6 (by decide) (by after_results_simp)

theorem w2_arg7 : W2 m ρ c (Proc.devRef .tc main_arg7) = (m ((c : Thread nD τ).loc main_arg7)) :=
  w2_arg m ρ c main_arg7 (by decide) (by after_results_simp)

theorem w2_arg8 : W2 m ρ c (Proc.devRef .tc main_arg8) = (m ((c : Thread nD τ).loc main_arg8)) :=
  w2_arg m ρ c main_arg8 (by decide) (by after_results_simp)

theorem w2_arg9 : W2 m ρ c (Proc.devRef .tc main_arg9) = (m ((c : Thread nD τ).loc main_arg9)) :=
  w2_arg m ρ c main_arg9 (by decide) (by after_results_simp)

theorem w2_arg10 : W2 m ρ c (Proc.devRef .tc main_arg10) = (m ((c : Thread nD τ).loc main_arg10)) :=
  w2_arg m ρ c main_arg10 (by decide) (by after_results_simp)

theorem w2_arg11 : W2 m ρ c (Proc.devRef .tc main_arg11) = (m ((c : Thread nD τ).loc main_arg11)) :=
  w2_arg m ρ c main_arg11 (by decide) (by after_results_simp)

theorem w2_arg12 : W2 m ρ c (Proc.devRef .tc main_arg12) = (m ((c : Thread nD τ).loc main_arg12)) :=
  w2_arg m ρ c main_arg12 (by decide) (by after_results_simp)

theorem w2_arg13 : W2 m ρ c (Proc.devRef .tc main_arg13) = (m ((c : Thread nD τ).loc main_arg13)) :=
  w2_arg m ρ c main_arg13 (by decide) (by after_results_simp)

theorem w2_arg14 : W2 m ρ c (Proc.devRef .tc main_arg14) = (m ((c : Thread nD τ).loc main_arg14)) :=
  w2_arg m ρ c main_arg14 (by decide) (by after_results_simp)

/-- The input features at the first region's exit: an input window of it, so as entered, and no host operation wrote them. -/
theorem w2_arg0 : W2 m ρ c (Proc.devRef .tc main_arg0) = (m ((c : Thread nD τ).loc main_arg0)) :=
  ((W2_arr m ρ c 1).trans (((dat0 (V1 m ρ) c).arrAt_in 1 rfl _).trans (A_eq0 (V1 m ρ) c 1))).trans (s0_arg0 m ρ c)

/-- The first region's output array at the second region's entry: no host operation in between writes it. -/
theorem s1_v26 : (V3 m ρ c main_v26 : Spec.Mat 50000 128) = W2 m ρ c (Proc.devRef .tc main_v26) := by
  show StableHlo.after hostOps1 (W2 m ρ c) (Proc.devRef .tc main_v26) = _
  after_results_simp

theorem s1_arg0 : (V3 m ρ c main_arg0 : Spec.Mat 50000 128) = (m ((c : Thread nD τ).loc main_arg0)) := by
  show StableHlo.after hostOps1 (W2 m ρ c) (Proc.devRef .tc main_arg0) = _
  after_results_simp
  exact w2_arg0 m ρ c

/-- The second neighbour average: the reference's gather, scatter-adds and division, of the first region's output
    array and the second edge list. -/
theorem s1_v49 (h1 : Spec.Mat 50000 128) (hh1 : W2 m ρ c (Proc.devRef .tc main_v26) = h1) :
    (V3 m ρ c main_v49 : Spec.Mat 50000 128)
      = Host.divf (F := Ideal)
          (Host.scatterAdd Cert.ReferenceIdeal.scatter_S50000x128_S800000x1_S800000x128_1_0_0_1
            (Cert.ReferenceIdeal.Read.val_main_v42 (F := Ideal)) (Cert.ReferenceIdeal.Read.val_main_v43 (F := Ideal) (m ((c : Thread nD τ).loc main_arg2)))
            (Host.gather Cert.ReferenceIdeal.gather_S50000x128_S800000x1_S800000x128_1_0_n_n_0_1_1128 h1
              (Cert.ReferenceIdeal.Read.val_main_v40 (F := Ideal) (m ((c : Thread nD τ).loc main_arg2)))))
          (Cert.ReferenceIdeal.Read.val_main_v52 (F := Ideal) (m ((c : Thread nD τ).loc main_arg2))) := by
  show StableHlo.after hostOps1 (W2 m ρ c) (Proc.devRef .tc main_v49) = _
  after_results_simp
  rw [hh1, w2_arg2]
  rfl

theorem s1_v50 : (V3 m ρ c main_v50 : Spec.Mat 128 128) = Cert.ReferenceIdeal.Read.val_main_v54 (F := Ideal) (m ((c : Thread nD τ).loc main_arg6)) := by
  show StableHlo.after hostOps1 (W2 m ρ c) (Proc.devRef .tc main_v50) = _
  after_results_simp
  rw [w2_arg6]
  rfl

theorem s1_v52 : (V3 m ρ c main_v52 : Spec.Mat 128 128) = Cert.ReferenceIdeal.Read.val_main_v59 (F := Ideal) (m ((c : Thread nD τ).loc main_arg8)) := by
  show StableHlo.after hostOps1 (W2 m ρ c) (Proc.devRef .tc main_v52) = _
  after_results_simp
  rw [w2_arg8]
  rfl

theorem s1_v53 : (V3 m ρ c main_v53 : Spec.Mat 128 128) = Cert.ReferenceIdeal.Read.val_main_v62 (F := Ideal) (m ((c : Thread nD τ).loc main_arg9)) := by
  show StableHlo.after hostOps1 (W2 m ρ c) (Proc.devRef .tc main_v53) = _
  after_results_simp
  rw [w2_arg9]
  rfl

theorem s1_v55 : (V3 m ρ c main_v55 : Spec.Mat 128 256) = Cert.ReferenceIdeal.Read.val_main_v68 (F := Ideal) (m ((c : Thread nD τ).loc main_arg11)) := by
  show StableHlo.after hostOps1 (W2 m ρ c) (Proc.devRef .tc main_v55) = _
  after_results_simp
  rw [w2_arg11]
  rfl

theorem s1_v57 : (V3 m ρ c main_v57 : Spec.Mat 256 3) = Cert.ReferenceIdeal.Read.val_main_v74 (F := Ideal) (m ((c : Thread nD τ).loc main_arg13)) := by
  show StableHlo.after hostOps1 (W2 m ρ c) (Proc.devRef .tc main_v57) = _
  after_results_simp
  rw [w2_arg13]
  rfl

theorem s1_v51 (j : Fin 128) : (V3 m ρ c main_v51 : Spec.Mat 1 128) (ix2 (0 : Fin 1) j) = (m ((c : Thread nD τ).loc main_arg7)) (ix1 j) := by
  have e : (V3 m ρ c main_v51 : Spec.Mat 1 128) = shapeCast S1x128 (m ((c : Thread nD τ).loc main_arg7)) shapeCasts_S128_S1x128 := by
    show StableHlo.after hostOps1 (W2 m ρ c) (Proc.devRef .tc main_v51) = _
    after_results_simp
    rw [w2_arg7]
    rfl
  rw [e]
  exact Cert.RowForm.row_of_reshape _ _ j

theorem s1_v54 (j : Fin 128) : (V3 m ρ c main_v54 : Spec.Mat 1 128) (ix2 (0 : Fin 1) j) = (m ((c : Thread nD τ).loc main_arg10)) (ix1 j) := by
  have e : (V3 m ρ c main_v54 : Spec.Mat 1 128) = shapeCast S1x128 (m ((c : Thread nD τ).loc main_arg10)) shapeCasts_S128_S1x128 := by
    show StableHlo.after hostOps1 (W2 m ρ c) (Proc.devRef .tc main_v54) = _
    after_results_simp
    rw [w2_arg10]
    rfl
  rw [e]
  exact Cert.RowForm.row_of_reshape _ _ j

theorem s1_v56 (j : Fin 256) : (V3 m ρ c main_v56 : Spec.Mat 1 256) (ix2 (0 : Fin 1) j) = (m ((c : Thread nD τ).loc main_arg12)) (ix1 j) := by
  have e : (V3 m ρ c main_v56 : Spec.Mat 1 256) = shapeCast S1x256 (m ((c : Thread nD τ).loc main_arg12)) shapeCasts_S256_S1x256 := by
    show StableHlo.after hostOps1 (W2 m ρ c) (Proc.devRef .tc main_v56) = _
    after_results_simp
    rw [w2_arg12]
    rfl
  rw [e]
  exact Cert.RowForm.row_of_reshape _ _ j

theorem s1_v58 (j : Fin 3) : (V3 m ρ c main_v58 : Spec.Mat 1 3) (ix2 (0 : Fin 1) j) = (m ((c : Thread nD τ).loc main_arg14)) (ix1 j) := by
  have e : (V3 m ρ c main_v58 : Spec.Mat 1 3) = shapeCast S1x3 (m ((c : Thread nD τ).loc main_arg14)) shapeCasts_S3_S1x3 := by
    show StableHlo.after hostOps1 (W2 m ρ c) (Proc.devRef .tc main_v58) = _
    after_results_simp
    rw [w2_arg14]
    rfl
  rw [e]
  exact Cert.RowForm.row_of_reshape _ _ j

end Cert.KernelIdeal.HostRead

end
-- ==== Proof.Meet.lean ====
/-
  The one function both programs compute.

  From the arguments: the first layer's array `h1` is the layer of every node's rows over the first neighbour
  average; the second neighbour average `agg2` is formed from `h1` and the second edge list by the host's gather,
  scatter-adds and division; the result is the head of every node's rows over `agg2`, `h1` and the input features.
  The averaging stages are kept as the host operations' own terms: they are common to both programs and are never opened.
-/
import proofs.«168521_j38878043963420_1_alg».proof.Proof.Gen.ReferenceIdeal.Read
import proofs.«168521_j38878043963420_1_alg».proof.Proof.Spec

noncomputable section

namespace Cert.Meet

open Idealize.ShloMosaic Idealize.ShloMosaic.ValueIdx Cert.ReferenceIdeal Cert.ReferenceIdeal.Read

variable (x0 : (⟨S50000x128, .f32⟩ : BufTy).Contents (Elt Ideal)) (x1 x2 : (⟨S2x800000, .i32⟩ : BufTy).Contents (Elt Ideal))
  (x3 : (⟨S128x128, .f32⟩ : BufTy).Contents (Elt Ideal)) (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal)) (x10 : (⟨S128, .f32⟩ : BufTy).Contents (Elt Ideal))
  (x11 : (⟨S256x128, .f32⟩ : BufTy).Contents (Elt Ideal)) (x12 : (⟨S256, .f32⟩ : BufTy).Contents (Elt Ideal)) (x13 : (⟨S3x256, .f32⟩ : BufTy).Contents (Elt Ideal))
  (x14 : (⟨S3, .f32⟩ : BufTy).Contents (Elt Ideal))

/-- The first layer's output array. -/
def h1 : Spec.Mat 50000 128 :=
  Spec.layerArr (val_main_v22 (F := Ideal) x0 x1) x0 (val_main_v23 (F := Ideal) x3) (fun j => x4 (ix1 j))
    (val_main_v28 (F := Ideal) x5)

/-- The neighbour average of a feature array `f` along the second edge list. -/
def agg2 (f : Spec.Mat 50000 128) : Spec.Mat 50000 128 :=
  Host.divf (F := Ideal)
    (Host.scatterAdd scatter_S50000x128_S800000x1_S800000x128_1_0_0_1 (val_main_v42 (F := Ideal))
      (val_main_v43 (F := Ideal) x2)
      (Host.gather gather_S50000x128_S800000x1_S800000x128_1_0_n_n_0_1_1128 f (val_main_v40 (F := Ideal) x2)))
    (val_main_v52 (F := Ideal) x2)

/-- The result array. -/
def out : Spec.Mat 50000 3 :=
  Spec.headArr (agg2 x2 (h1 x0 x1 x3 x4 x5)) (h1 x0 x1 x3 x4 x5) x0 (val_main_v54 (F := Ideal) x6) (fun j => x7 (ix1 j))
    (val_main_v59 (F := Ideal) x8) (val_main_v62 (F := Ideal) x9) (fun j => x10 (ix1 j)) (val_main_v68 (F := Ideal) x11)
    (fun u => x12 (ix1 u)) (val_main_v74 (F := Ideal) x13) (fun o => x14 (ix1 o))

end Cert.Meet

end
-- ==== Proof.Run.lean ====
/-
  The run of the two-region program with every buffer's final contents kept.

  The program is four segments: host operations, the first layer's region, host operations, the head's region. Its
  run ends, on every core, with every buffer that is not scoped to a region holding the contents reached by folding
  the segments from the launch memory: after a host stretch the operations' results, after a region its output array
  at what the grid points wrote back and every other buffer as entered. Read at the program's result buffer this is
  what the head's region wrote; read at an argument it is the launch contents.
-/
import proofs.«168521_j38878043963420_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.KernelIdeal.Run

end
-- ==== Proof.KernelResult.lean ====
/-
  The kernel's result array as one function of its arguments.

  Folding the four segments: the first region's output array is the layer of every node's rows over what the first host
  stretch prepared, which is the first layer `h1` of the arguments; the second host stretch forms the second neighbour
  average from that array and prepares the remaining weights; the second region's output array is the head of every
  node's rows over those. So the result buffer ends holding the meeting-point function of the launch contents.
-/
import proofs.«168521_j38878043963420_1_alg».proof.Proof.Region0
import proofs.«168521_j38878043963420_1_alg».proof.Proof.Region1
import proofs.«168521_j38878043963420_1_alg».proof.Proof.HostRead
import proofs.«168521_j38878043963420_1_alg».proof.Proof.Meet
import proofs.«168521_j38878043963420_1_alg».proof.Proof.Run

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The first region's output array, at its exit, is the first layer of the arguments. -/
theorem h1_at_exit :
    W2 m ρ c (Proc.devRef .tc main_v26) = Cert.Meet.h1 (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Region0.final (V1 m ρ) c).trans ?_)
  show Spec.layerArr (V1 m ρ c main_v22) (V1 m ρ c main_arg0) (V1 m ρ c main_v23)
      (fun j => V1 m ρ c main_v24 (ix2 (0 : Fin 1) j)) (V1 m ρ c main_v25) = _
  have e24 : (fun j : Fin 128 => (V1 m ρ c main_v24 : Spec.Mat 1 128) (ix2 (0 : Fin 1) j)) = fun j => (m ((c : Thread nD τ).loc main_arg4)) (ix1 j) :=
    funext (HostRead.s0_v24 m ρ c)
  rw [HostRead.s0_v22, HostRead.s0_arg0, HostRead.s0_v23, HostRead.s0_v25, e24]
  rfl

/-- The result buffer's final contents. -/
theorem result :
    W4 m ρ c (Proc.devRef .tc main_v59) = Cert.Meet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W4_arr m ρ c 12).trans ((Region1.final (V3 m ρ) c).trans ?_)
  show Spec.headArr (V3 m ρ c main_v49) (V3 m ρ c main_v26) (V3 m ρ c main_arg0) (V3 m ρ c main_v50)
      (fun j => V3 m ρ c main_v51 (ix2 (0 : Fin 1) j)) (V3 m ρ c main_v52) (V3 m ρ c main_v53)
      (fun j => V3 m ρ c main_v54 (ix2 (0 : Fin 1) j)) (V3 m ρ c main_v55)
      (fun u => V3 m ρ c main_v56 (ix2 (0 : Fin 1) u)) (V3 m ρ c main_v57)
      (fun o => V3 m ρ c main_v58 (ix2 (0 : Fin 1) o)) = _
  have e51 : (fun j : Fin 128 => (V3 m ρ c main_v51 : Spec.Mat 1 128) (ix2 (0 : Fin 1) j)) = fun j => (m ((c : Thread nD τ).loc main_arg7)) (ix1 j) :=
    funext (HostRead.s1_v51 m ρ c)
  have e54 : (fun j : Fin 128 => (V3 m ρ c main_v54 : Spec.Mat 1 128) (ix2 (0 : Fin 1) j)) = fun j => (m ((c : Thread nD τ).loc main_arg10)) (ix1 j) :=
    funext (HostRead.s1_v54 m ρ c)
  have e56 : (fun u : Fin 256 => (V3 m ρ c main_v56 : Spec.Mat 1 256) (ix2 (0 : Fin 1) u)) = fun u => (m ((c : Thread nD τ).loc main_arg12)) (ix1 u) :=
    funext (HostRead.s1_v56 m ρ c)
  have e58 : (fun o : Fin 3 => (V3 m ρ c main_v58 : Spec.Mat 1 3) (ix2 (0 : Fin 1) o)) = fun o => (m ((c : Thread nD τ).loc main_arg14)) (ix1 o) :=
    funext (HostRead.s1_v58 m ρ c)
  rw [HostRead.s1_v49 m ρ c _ (h1_at_exit m ρ c), HostRead.s1_v26, h1_at_exit, HostRead.s1_arg0, HostRead.s1_v50,
    HostRead.s1_v52, HostRead.s1_v53, HostRead.s1_v55, HostRead.s1_v57, e51, e54, e56, e58]
  rfl

/-- Every weakly fair execution of the kernel terminates, nothing faulting, with the result buffer at the meeting-point
    function of the launch contents and every argument as launched. -/
theorem run : θ_run defs (onTc (τ := τ) (main (F := Ideal))) ⟨m, fun _ => 0, ρ⟩ (fun r => ∀ c : Dev nD,
      r.2.mem ((c.tc : Thread nD τ).loc main_v59) = Cert.Meet.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v59 (by decide))).trans (result m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c)⟩)
    (Cert.KernelIdeal.Run.run_held m ρ)

end Cert.KernelIdeal.Result

end
-- ==== Proof.RefRead.lean ====
/-
  The reference, read row by row.

  The reference forms each dense stage on whole arrays: a product of the 50000-row array with a transposed weight
  matrix (entry (r, j) the sum over k of the row's entries against the matrix's column), a bias vector stretched over
  the rows, sums of such arrays, and one clamp at zero from below. Entry (r, j) of every stage depends only on row r of
  the stage's array operands, so the first layer's array is the layer of every node's rows, and the result is the head
  of every node's rows, over the two neighbour averages as the reference's own host operations form them.
-/
import proofs.«168521_j38878043963420_1_alg».proof.Proof.Gen.ReferenceIdeal.Read
import proofs.«168521_j38878043963420_1_alg».proof.Proof.Spec
import proofs.«168521_j38878043963420_1_alg».proof.Proof.Meet

set_option maxHeartbeats 400000

noncomputable section

open scoped BigOperators

namespace Cert.ReferenceIdeal.RefValue

open Idealize.ShloMosaic Idealize.ShloMosaic.ValueIdx Cert.ReferenceIdeal Cert.ReferenceIdeal.Read

/-! ## Which entries a product and a stretched bias read -/

theorem l24 (r : Fin 50000) (j k : Fin 128) : lidx_main_v24 (ix2 r j) k = ix2 r k :=
  funext fun a => Fin.ext (by match a with | ⟨0, _⟩ => rfl | ⟨1, _⟩ => rfl)
theorem r24 (r : Fin 50000) (j k : Fin 128) : ridx_main_v24 (ix2 r j) k = ix2 k j :=
  funext fun a => Fin.ext (by match a with | ⟨0, _⟩ => rfl | ⟨1, _⟩ => rfl)
theorem l29 (r : Fin 50000) (j k : Fin 128) : lidx_main_v29 (ix2 r j) k = ix2 r k :=
  funext fun a => Fin.ext (by match a with | ⟨0, _⟩ => rfl | ⟨1, _⟩ => rfl)
theorem r29 (r : Fin 50000) (j k : Fin 128) : ridx_main_v29 (ix2 r j) k = ix2 k j :=
  funext fun a => Fin.ext (by match a with | ⟨0, _⟩ => rfl | ⟨1, _⟩ => rfl)
theorem l55 (r : Fin 50000) (j k : Fin 128) : lidx_main_v55 (ix2 r j) k = ix2 r k :=
  funext fun a => Fin.ext (by match a with | ⟨0, _⟩ => rfl | ⟨1, _⟩ => rfl)
theorem r55 (r : Fin 50000) (j k : Fin 128) : ridx_main_v55 (ix2 r j) k = ix2 k j :=
  funext fun a => Fin.ext (by match a with | ⟨0, _⟩ => rfl | ⟨1, _⟩ => rfl)
theorem l60 (r : Fin 50000) (j k : Fin 128) : lidx_main_v60 (ix2 r j) k = ix2 r k :=
  funext fun a => Fin.ext (by match a with | ⟨0, _⟩ => rfl | ⟨1, _⟩ => rfl)
theorem r60 (r : Fin 50000) (j k : Fin 128) : ridx_main_v60 (ix2 r j) k = ix2 k j :=
  funext fun a => Fin.ext (by match a with | ⟨0, _⟩ => rfl | ⟨1, _⟩ => rfl)
theorem l63 (r : Fin 50000) (j k : Fin 128) : lidx_main_v63 (ix2 r j) k = ix2 r k :=
  funext fun a => Fin.ext (by match a with | ⟨0, _⟩ => rfl | ⟨1, _⟩ => rfl)
theorem r63 (r : Fin 50000) (j k : Fin 128) : ridx_main_v63 (ix2 r j) k = ix2 k j :=
  funext fun a => Fin.ext (by match a with | ⟨0, _⟩ => rfl | ⟨1, _⟩ => rfl)
theorem l69 (r : Fin 50000) (u : Fin 256) (k : Fin 128) : lidx_main_v69 (ix2 r u) k = ix2 r k :=
  funext fun a => Fin.ext (by match a with | ⟨0, _⟩ => rfl | ⟨1, _⟩ => rfl)
theorem r69 (r : Fin 50000) (u : Fin 256) (k : Fin 128) : ridx_main_v69 (ix2 r u) k = ix2 k u :=
  funext fun a => Fin.ext (by match a with | ⟨0, _⟩ => rfl | ⟨1, _⟩ => rfl)
theorem l75 (r : Fin 50000) (o : Fin 3) (k : Fin 256) : lidx_main_v75 (ix2 r o) k = ix2 r k :=
  funext fun a => Fin.ext (by match a with | ⟨0, _⟩ => rfl | ⟨1, _⟩ => rfl)
theorem r75 (r : Fin 50000) (o : Fin 3) (k : Fin 256) : ridx_main_v75 (ix2 r o) k = ix2 k o :=
  funext fun a => Fin.ext (by match a with | ⟨0, _⟩ => rfl | ⟨1, _⟩ => rfl)
theorem b26 (r : Fin 50000) (j : Fin 128) : idx_main_v25 (idx_main_v26 (ix2 r j)) = ix1 j :=
  funext fun a => Fin.ext (by match a with | ⟨0, _⟩ => rfl)
theorem b57 (r : Fin 50000) (j : Fin 128) : idx_main_v56 (idx_main_v57 (ix2 r j)) = ix1 j :=
  funext fun a => Fin.ext (by match a with | ⟨0, _⟩ => rfl)
theorem b65 (r : Fin 50000) (j : Fin 128) : idx_main_v64 (idx_main_v65 (ix2 r j)) = ix1 j :=
  funext fun a => Fin.ext (by match a with | ⟨0, _⟩ => rfl)
theorem b71 (r : Fin 50000) (j : Fin 256) : idx_main_v70 (idx_main_v71 (ix2 r j)) = ix1 j :=
  funext fun a => Fin.ext (by match a with | ⟨0, _⟩ => rfl)
theorem b77 (r : Fin 50000) (j : Fin 3) : idx_main_v76 (idx_main_v77 (ix2 r j)) = ix1 j :=
  funext fun a => Fin.ext (by match a with | ⟨0, _⟩ => rfl)

variable (x0 : (⟨S50000x128, .f32⟩ : BufTy).Contents (Elt Ideal)) (x1 x2 : (⟨S2x800000, .i32⟩ : BufTy).Contents (Elt Ideal))
  (x3 : (⟨S128x128, .f32⟩ : BufTy).Contents (Elt Ideal)) (x4 : (⟨S128, .f32⟩ : BufTy).Contents (Elt Ideal)) (x5 x6 : (⟨S128x128, .f32⟩ : BufTy).Contents (Elt Ideal))
  (x7 : (⟨S128, .f32⟩ : BufTy).Contents (Elt Ideal)) (x8 x9 : (⟨S128x128, .f32⟩ : BufTy).Contents (Elt Ideal)) (x10 : (⟨S128, .f32⟩ : BufTy).Contents (Elt Ideal))
  (x11 : (⟨S256x128, .f32⟩ : BufTy).Contents (Elt Ideal)) (x12 : (⟨S256, .f32⟩ : BufTy).Contents (Elt Ideal)) (x13 : (⟨S3x256, .f32⟩ : BufTy).Contents (Elt Ideal))
  (x14 : (⟨S3, .f32⟩ : BufTy).Contents (Elt Ideal))

/-- The reference's spelling of one layer entry — sums of products of entries, a bias entry added between — is the
    layer of the rows. -/
theorem layer_meets (agg x : (⟨S50000x128, .f32⟩ : BufTy).Contents (Elt Ideal)) (wl wr : (⟨S128x128, .f32⟩ : BufTy).Contents (Elt Ideal))
    (b : (⟨S128, .f32⟩ : BufTy).Contents (Elt Ideal)) (r : Fin 50000) (j : Fin 128) :
    FloatOps.addf (F := Ideal)
        (FloatOps.addf (∑ k : Fin 128, agg (ix2 r k) * wl (ix2 k j)) (b (ix1 j)))
        (∑ k : Fin 128, x (ix2 r k) * wr (ix2 k j))
      = Spec.layer (Spec.row agg r) (Spec.row x r) wl (fun j => b (ix1 j)) wr j := rfl

/-- The reference's spelling of one skip-sum entry is the skip sum of the rows. -/
theorem skip_meets (agg2 h1 x : (⟨S50000x128, .f32⟩ : BufTy).Contents (Elt Ideal)) (wl2 wr2 ws : (⟨S128x128, .f32⟩ : BufTy).Contents (Elt Ideal)) (bl2 bs : (⟨S128, .f32⟩ : BufTy).Contents (Elt Ideal)) (r : Fin 50000) (j : Fin 128) :
    FloatOps.addf (F := Ideal)
        (FloatOps.addf
          (FloatOps.addf (∑ k : Fin 128, agg2 (ix2 r k) * wl2 (ix2 k j)) (bl2 (ix1 j)))
          (∑ k : Fin 128, h1 (ix2 r k) * wr2 (ix2 k j)))
        (FloatOps.addf (∑ k : Fin 128, x (ix2 r k) * ws (ix2 k j)) (bs (ix1 j)))
      = Spec.skipSum (Spec.row agg2 r) (Spec.row h1 r) (Spec.row x r) wl2 (fun j => bl2 (ix1 j)) wr2 ws
          (fun j => bs (ix1 j)) j := rfl

/-- The reference's spelling of one hidden entry over any row `s` of skip sums. -/
theorem hidden_meets (s : Spec.Row 128) (w1 : (⟨S128x256, .f32⟩ : BufTy).Contents (Elt Ideal)) (b1 : (⟨S256, .f32⟩ : BufTy).Contents (Elt Ideal)) (u : Fin 256) :
    FloatOps.maximumf (F := Ideal) (FloatOps.addf (∑ j : Fin 128, s j * w1 (ix2 j u)) (b1 (ix1 u)))
        (FloatOps.ofBits .f32 0x00000000#32)
      = max (Spec.rowProd s w1 u + b1 (ix1 u)) (Ideal.ofBits .f32 0x00000000#32) := rfl

/-- The reference's spelling of one result entry over any row `h` of hidden values. -/
theorem head_meets (h : Spec.Row 256) (w2 : (⟨S256x3, .f32⟩ : BufTy).Contents (Elt Ideal)) (b2 : (⟨S3, .f32⟩ : BufTy).Contents (Elt Ideal)) (o : Fin 3) :
    FloatOps.addf (F := Ideal) (∑ u : Fin 256, h u * w2 (ix2 u o)) (b2 (ix1 o)) = Spec.rowProd h w2 o + b2 (ix1 o) := rfl

/-- The reference's first layer is the layer of every node's rows. -/
theorem h1_eq :
    val_main_v30 (F := Ideal) x0 x1 x3 x4 x5
      = Spec.layerArr (val_main_v22 (F := Ideal) x0 x1) x0 (val_main_v23 (F := Ideal) x3) (fun j => x4 (ix1 j))
          (val_main_v28 (F := Ideal) x5) := by
  funext i
  obtain ⟨r, j, rfl⟩ : ∃ (r : Fin 50000) (j : Fin 128), i = ix2 r j := ⟨i 0, i 1, eq_ix2 i⟩
  rw [Spec.layerArr_apply, val_main_v30_apply, val_main_v27_apply, val_main_v24_apply, val_main_v29_apply,
    val_main_v26_apply, val_main_v25_apply]
  simp only [l24, r24, l29, r29, b26]
  exact layer_meets (val_main_v22 (F := Ideal) x0 x1) x0 (val_main_v23 (F := Ideal) x3) (val_main_v28 (F := Ideal) x5) x4 r j

/-- Entry (r, j) of the reference's second layer plus skip projection: the skip sum of node r's rows. -/
theorem skip_eq (r : Fin 50000) (j : Fin 128) :
    val_main_v67 (F := Ideal) x0 x1 x2 x3 x4 x5 x6 x7 x8 x9 x10 (ix2 r j)
      = Spec.skipSum (Spec.row (val_main_v53 (F := Ideal) x0 x1 x2 x3 x4 x5) r)
          (Spec.row (val_main_v30 (F := Ideal) x0 x1 x3 x4 x5) r) (Spec.row x0 r) (val_main_v54 (F := Ideal) x6)
          (fun j => x7 (ix1 j)) (val_main_v59 (F := Ideal) x8) (val_main_v62 (F := Ideal) x9) (fun j => x10 (ix1 j)) j := by
  rw [val_main_v67_apply, val_main_v61_apply, val_main_v58_apply, val_main_v55_apply, val_main_v57_apply,
    val_main_v56_apply, val_main_v60_apply, val_main_v66_apply, val_main_v63_apply, val_main_v65_apply,
    val_main_v64_apply]
  simp only [l55, r55, l60, r60, l63, r63, b57, b65]
  exact skip_meets (val_main_v53 (F := Ideal) x0 x1 x2 x3 x4 x5) (val_main_v30 (F := Ideal) x0 x1 x3 x4 x5) x0
    (val_main_v54 (F := Ideal) x6) (val_main_v59 (F := Ideal) x8) (val_main_v62 (F := Ideal) x9) x7 x10 r j

/-- Entry (r, u) of the reference's clamped hidden layer. -/
theorem hidden_eq (r : Fin 50000) (u : Fin 256) :
    val_main_v73 (F := Ideal) x0 x1 x2 x3 x4 x5 x6 x7 x8 x9 x10 x11 x12 (ix2 r u)
      = Spec.hidden (Spec.row (val_main_v53 (F := Ideal) x0 x1 x2 x3 x4 x5) r)
          (Spec.row (val_main_v30 (F := Ideal) x0 x1 x3 x4 x5) r) (Spec.row x0 r) (val_main_v54 (F := Ideal) x6)
          (fun j => x7 (ix1 j)) (val_main_v59 (F := Ideal) x8) (val_main_v62 (F := Ideal) x9) (fun j => x10 (ix1 j))
          (val_main_v68 (F := Ideal) x11) (fun u => x12 (ix1 u)) u := by
  rw [val_main_v73_apply, val_main_v72_apply, val_main_v69_apply, val_main_v71_apply, val_main_v70_apply,
    val_main_call0_v0_apply, val_main_call0_cst_apply]
  simp only [l69, r69, b71, skip_eq]
  exact hidden_meets _ (val_main_v68 (F := Ideal) x11) x12 u

/-- The reference's result is the head of every node's rows. -/
theorem out_eq :
    val_main_v78 (F := Ideal) x0 x1 x2 x3 x4 x5 x6 x7 x8 x9 x10 x11 x12 x13 x14
      = Spec.headArr (val_main_v53 (F := Ideal) x0 x1 x2 x3 x4 x5) (val_main_v30 (F := Ideal) x0 x1 x3 x4 x5) x0
          (val_main_v54 (F := Ideal) x6) (fun j => x7 (ix1 j)) (val_main_v59 (F := Ideal) x8) (val_main_v62 (F := Ideal) x9)
          (fun j => x10 (ix1 j)) (val_main_v68 (F := Ideal) x11) (fun u => x12 (ix1 u)) (val_main_v74 (F := Ideal) x13)
          (fun o => x14 (ix1 o)) := by
  funext i
  obtain ⟨r, o, rfl⟩ : ∃ (r : Fin 50000) (o : Fin 3), i = ix2 r o := ⟨i 0, i 1, eq_ix2 i⟩
  rw [Spec.headArr_apply, val_main_v78_apply, val_main_v75_apply, val_main_v77_apply, val_main_v76_apply]
  simp only [l75, r75, b77, hidden_eq]
  exact head_meets _ (val_main_v74 (F := Ideal) x13) x14 o

/-- The reference's second neighbour average is the average of its first layer's array along the second edge list. -/
theorem agg2_eq :
    val_main_v53 (F := Ideal) x0 x1 x2 x3 x4 x5 = Cert.Meet.agg2 x2 (val_main_v30 (F := Ideal) x0 x1 x3 x4 x5) := rfl

/-- The reference's result is the meeting-point function of its arguments. -/
theorem ref_eq :
    val_main_v78 (F := Ideal) x0 x1 x2 x3 x4 x5 x6 x7 x8 x9 x10 x11 x12 x13 x14
      = Cert.Meet.out x0 x1 x2 x3 x4 x5 x6 x7 x8 x9 x10 x11 x12 x13 x14 := by
  rw [out_eq, agg2_eq, h1_eq]
  rfl

end Cert.ReferenceIdeal.RefValue

end
-- ==== Proof.lean ====
/-
  Two neighbour-averaging layers and a dense head over 50000 nodes: the tiled kernel against the whole-array reference.

  Both programs form each neighbour average by the same host operations (gather the source rows, scatter-add them and a
  count by destination, divide by the count clamped below at one). The kernel then hands 2000-row bands to two regions:
  the first computes one layer (Σ_k agg·Wl + bl) + Σ_k x·Wr on each band, the second the second layer, the skip
  projection, the clamped hidden layer and the last affine map. The reference does the same with whole-array products.
  Every dense stage acts on one node's row at a time, so each region's output array is that stage of every node's
  rows, whatever the banding; the narrowing of the products' operands to a shorter float format is the identity on the
  extended reals; a product into the zero tile and the host's product are the same finite sum. Both programs therefore
  end with one and the same function of their arguments (Meet.lean), built from sums and products in the same
  grouping on both sides: no finiteness of the inputs is used. The idealization rewrote no operation, so that claim is
  trivial; the kernels' frames are the generated ones, the reference's frame is its generated run with the result dropped.
-/
import proofs.«168521_j38878043963420_1_alg».proof.Defs
import proofs.«168521_j38878043963420_1_alg».proof.Proof.Gen.Kernel
import proofs.«168521_j38878043963420_1_alg».proof.Proof.Gen.Kernel.Skeleton
import proofs.«168521_j38878043963420_1_alg».proof.Proof.Gen.Kernel.Launch
import proofs.«168521_j38878043963420_1_alg».proof.Proof.Gen.Kernel.Points
import proofs.«168521_j38878043963420_1_alg».proof.Proof.Gen.Kernel.Frame
import proofs.«168521_j38878043963420_1_alg».proof.Proof.Gen.KernelIdeal
import proofs.«168521_j38878043963420_1_alg».proof.Proof.Gen.KernelIdeal.Skeleton
import proofs.«168521_j38878043963420_1_alg».proof.Proof.Gen.KernelIdeal.Launch
import proofs.«168521_j38878043963420_1_alg».proof.Proof.Gen.KernelIdeal.Points
import proofs.«168521_j38878043963420_1_alg».proof.Proof.Gen.KernelIdeal.Frame
import proofs.«168521_j38878043963420_1_alg».proof.Proof.Gen.ReferenceIdeal
import proofs.«168521_j38878043963420_1_alg».proof.Proof.Gen.ReferenceIdeal.Run
import proofs.«168521_j38878043963420_1_alg».proof.Proof.Gen.ReferenceIdeal.Read
import proofs.«168521_j38878043963420_1_alg».proof.Proof.Gen.Pre_finite_inputs
import Idealize.ShloMosaic.Adequacy
import Idealize.ShloMosaic.Init
import proofs.«168521_j38878043963420_1_alg».proof.Proof.KernelResult
import proofs.«168521_j38878043963420_1_alg».proof.Proof.RefRead

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the meeting-point function of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v78_eq, Cert.ReferenceIdeal.RefValue.ref_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
